-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x64 : Shape := ⟨2, ![1, 64]⟩
abbrev S100000x1 : Shape := ⟨2, ![100000, 1]⟩
abbrev S5000x1 : Shape := ⟨2, ![5000, 1]⟩
abbrev S1600000x128 : Shape := ⟨2, ![1600000, 128]⟩
abbrev S1x128 : Shape := ⟨2, ![1, 128]⟩

abbrev nBuf : Space → Nat
  | .hbm => 78
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000x1, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S1x64, .f32⟩
  | .hbm, ⟨47, _⟩ => ⟨S100000x1, .f32⟩
  | .hbm, ⟨48, _⟩ => ⟨S100000x64, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000, .f32⟩
  | .hbm, ⟨68, _⟩ => ⟨S1600000x1, .f32⟩
  | .hbm, ⟨69, _⟩ => ⟨S1600000x128, .f32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S1x128, .f32⟩
  | .hbm, ⟨76, _⟩ => ⟨S100000x1, .f32⟩
  | .hbm, ⟨77, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_8 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v34) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S1600000x128 : Shape := ⟨2, ![1600000, 128]⟩
abbrev S1x128 : Shape := ⟨2, ![1, 128]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000x1, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S100000, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S100000x64, .f32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000, .f32⟩
  | .hbm, ⟨89, _⟩ => ⟨S1600000x1, .f32⟩
  | .hbm, ⟨90, _⟩ => ⟨S1600000x128, .f32⟩
  | .hbm, ⟨91, _⟩ => ⟨S1600000x128, .f32⟩
  | .hbm, ⟨92, _⟩ => ⟨S_, .f32⟩
  | .hbm, ⟨93, _⟩ => ⟨S100000x128, .f32⟩
  | .hbm, ⟨94, _⟩ => ⟨S1600000x1, .i32⟩
  | .hbm, ⟨95, _⟩ => ⟨S100000x128, .f32⟩
  | .hbm, ⟨96, _⟩ => ⟨S100000x1, .f32⟩
  | .hbm, ⟨97, _⟩ => ⟨S100000x128, .f32⟩
  | .hbm, ⟨98, _⟩ => ⟨S100000x128, .f32⟩
  | .hbm, ⟨99, _⟩ => ⟨S100000, .f32⟩
  | .hbm, ⟨100, _⟩ => ⟨S100000x1, .f32⟩
  | .hbm, ⟨101, _⟩ => ⟨S100000x128, .f32⟩
  | .hbm, ⟨102, _⟩ => ⟨S100000x128, .f32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call0_cst : Ref sig .tc := ⟨.hbm, 57, rfl⟩
abbrev main_call0_v0 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run with its RESULT named.

  The program is seven segments: a stretch of host operations, a pipelined region (the first matrix product), a second
  stretch of host operations (gathers, scaling, the scatter-add of the first layer), two regions back to back (the
  first layer's combination with its rectifier, and the second matrix product), a third stretch of host operations
  (the second layer's gathers and scatter-add), and the last region (the second layer's combination). The contents of
  every unscoped buffer at each segment boundary are a fold through the program from the launch memory; the last
  boundary's contents are `W7`. Every weakly fair execution terminates without a fault in a state whose unscoped
  buffers hold `W7`: so the result buffer ends at `W7` read at the result, and each argument ends as launched.
-/
import proofs.«167669_j44659069944275_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and every argument as launched. -/
theorem run_result : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.ValueRun

end
-- ==== Proof.HostStretch.lean ====
/-
  The host operations between the regions, read against the reference's stages.

  Both programs apply the same host operations around their dense parts: the source and destination rows of the edge
  list, the degree as a scatter-add of ones and its reciprocal square root, the gather of source features scaled by the
  source's reciprocal root, and the scatter-add into destination rows. Here each stretch of the kernel program's host
  operations is read from ANY contents of the buffers it starts from: a buffer it writes holds that operation's function
  of the buffers it reads, a buffer it does not write is unchanged. The gathers and scatter-adds are never opened: the two
  programs apply the same function to equal operands.
-/
import proofs.«167669_j44659069944275_1_alg».proof.Proof.Gen.KernelIdeal.Frame
import proofs.«167669_j44659069944275_1_alg».proof.Proof.Gen.ReferenceIdeal.Read

set_option maxRecDepth 16384

noncomputable section

namespace Cert.KernelIdeal.HostValue

open Idealize.ShloMosaic Idealize.ShloMosaic.TcCoe Idealize.ShloMosaic.StableHlo Idealize.SL.Sem
open Cert.KernelIdeal Cert.KernelIdeal.Gen

variable {F : FTy → Type} [FloatOps F]

variable (W : Valuation τ sig (Elt F))

/-! ## The first stretch: edge rows, degree, reciprocal root -/

/-- The source rows: the first row of the edge list, as a vector. -/
theorem stretch0_src :
    StableHlo.after hostOps0 W (Proc.devRef .tc main_v1) = Cert.ReferenceIdeal.Read.val_main_v1 (F := F) (W (Proc.devRef .tc main_arg1)) := by
  after_results_simp
  rfl

/-- The destination rows: the second row of the edge list, as a vector. -/
theorem stretch0_dst :
    StableHlo.after hostOps0 W (Proc.devRef .tc main_v3) = Cert.ReferenceIdeal.Read.val_main_v3 (F := F) (W (Proc.devRef .tc main_arg1)) := by
  after_results_simp
  rfl

/-- The reciprocal square root of one plus the in-degree. -/
theorem stretch0_norm :
    StableHlo.after hostOps0 W (Proc.devRef .tc main_v10) = Cert.ReferenceIdeal.Read.val_main_v11 (F := F) (W (Proc.devRef .tc main_arg1)) := by
  after_results_simp
  rfl

/-- The first stretch writes none of the program's arguments. -/
theorem hostOps0_keeps_main_arg0 : StableHlo.after hostOps0 W (Proc.devRef .tc main_arg0) = W (Proc.devRef .tc main_arg0) := by
  after_results_simp
theorem hostOps0_keeps_main_arg1 : StableHlo.after hostOps0 W (Proc.devRef .tc main_arg1) = W (Proc.devRef .tc main_arg1) := by
  after_results_simp
theorem hostOps0_keeps_main_arg2 : StableHlo.after hostOps0 W (Proc.devRef .tc main_arg2) = W (Proc.devRef .tc main_arg2) := by
  after_results_simp
theorem hostOps0_keeps_main_arg3 : StableHlo.after hostOps0 W (Proc.devRef .tc main_arg3) = W (Proc.devRef .tc main_arg3) := by
  after_results_simp
theorem hostOps0_keeps_main_arg4 : StableHlo.after hostOps0 W (Proc.devRef .tc main_arg4) = W (Proc.devRef .tc main_arg4) := by
  after_results_simp
theorem hostOps0_keeps_main_arg5 : StableHlo.after hostOps0 W (Proc.devRef .tc main_arg5) = W (Proc.devRef .tc main_arg5) := by
  after_results_simp

/-! ## The second stretch: the first layer's aggregate, its bias as a row, the scale as a column -/

/-- The first layer's aggregate: from features equal to the reference's product, the reference's scale and edge rows,
    the gather of source rows scaled by the source's scale and scatter-added into destination rows is the reference's:
    the same operations on equal operands. -/
theorem stretch1_agg (x0 : (⟨S100000x128, .f32⟩ : BufTy).Contents (Elt F)) (x1 : (⟨S2x1600000, .i32⟩ : BufTy).Contents (Elt F))
    (x2 : (⟨S128x64, .f32⟩ : BufTy).Contents (Elt F))
    (hh : W (Proc.devRef .tc main_v11) = Cert.ReferenceIdeal.Read.val_main_v4 (F := F) x0 x2)
    (hn : W (Proc.devRef .tc main_v10) = Cert.ReferenceIdeal.Read.val_main_v11 (F := F) x1)
    (hs : W (Proc.devRef .tc main_v1) = Cert.ReferenceIdeal.Read.val_main_v1 (F := F) x1)
    (hd : W (Proc.devRef .tc main_v3) = Cert.ReferenceIdeal.Read.val_main_v3 (F := F) x1) :
    StableHlo.after hostOps1 W (Proc.devRef .tc main_v31) = Cert.ReferenceIdeal.Read.val_main_v31 (F := F) x0 x1 x2 := by
  after_results_simp
  rw [hh, hn, hs, hd]
  rfl

/-- The bias vector as a one-row matrix. -/
theorem stretch1_bias :
    StableHlo.after hostOps1 W (Proc.devRef .tc main_v32) = shapeCast S1x64 (W (Proc.devRef .tc main_arg3)) shapeCasts_S64_S1x64 := by
  after_results_simp
  rfl

/-- The scale vector as a one-column matrix. -/
theorem stretch1_scale :
    StableHlo.after hostOps1 W (Proc.devRef .tc main_v33) = shapeCast S100000x1 (W (Proc.devRef .tc main_v10)) shapeCasts_S100000_S100000x1 := by
  after_results_simp
  rfl

/-- What the second stretch leaves as it was. -/
theorem hostOps1_keeps_main_v11 : StableHlo.after hostOps1 W (Proc.devRef .tc main_v11) = W (Proc.devRef .tc main_v11) := by
  after_results_simp
theorem hostOps1_keeps_main_v10 : StableHlo.after hostOps1 W (Proc.devRef .tc main_v10) = W (Proc.devRef .tc main_v10) := by
  after_results_simp
theorem hostOps1_keeps_main_v1 : StableHlo.after hostOps1 W (Proc.devRef .tc main_v1) = W (Proc.devRef .tc main_v1) := by
  after_results_simp
theorem hostOps1_keeps_main_v3 : StableHlo.after hostOps1 W (Proc.devRef .tc main_v3) = W (Proc.devRef .tc main_v3) := by
  after_results_simp
theorem hostOps1_keeps_main_arg4 : StableHlo.after hostOps1 W (Proc.devRef .tc main_arg4) = W (Proc.devRef .tc main_arg4) := by
  after_results_simp
theorem hostOps1_keeps_main_arg5 : StableHlo.after hostOps1 W (Proc.devRef .tc main_arg5) = W (Proc.devRef .tc main_arg5) := by
  after_results_simp

/-! ## The third stretch: the second layer's aggregate, bias row and scale column -/

/-- The second layer's aggregate, as the first layer's: the same operations on equal operands (the reference computes
    the scale a second time, by the same operations of the same edge rows). -/
theorem stretch3_agg (x0 : (⟨S100000x128, .f32⟩ : BufTy).Contents (Elt F)) (x1 : (⟨S2x1600000, .i32⟩ : BufTy).Contents (Elt F))
    (x2 : (⟨S128x64, .f32⟩ : BufTy).Contents (Elt F)) (x3 : (⟨S64, .f32⟩ : BufTy).Contents (Elt F)) (x4 : (⟨S64x128, .f32⟩ : BufTy).Contents (Elt F))
    (hh : W (Proc.devRef .tc main_v35) = Cert.ReferenceIdeal.Read.val_main_v44 (F := F) x0 x1 x2 x3 x4)
    (hn : W (Proc.devRef .tc main_v10) = Cert.ReferenceIdeal.Read.val_main_v11 (F := F) x1)
    (hs : W (Proc.devRef .tc main_v1) = Cert.ReferenceIdeal.Read.val_main_v1 (F := F) x1)
    (hd : W (Proc.devRef .tc main_v3) = Cert.ReferenceIdeal.Read.val_main_v3 (F := F) x1) :
    StableHlo.after hostOps3 W (Proc.devRef .tc main_v55) = Cert.ReferenceIdeal.Read.val_main_v71 (F := F) x0 x1 x2 x3 x4 := by
  after_results_simp
  rw [hh, hn, hs, hd]
  rfl

/-- The bias vector as a one-row matrix. -/
theorem stretch3_bias :
    StableHlo.after hostOps3 W (Proc.devRef .tc main_v56) = shapeCast S1x128 (W (Proc.devRef .tc main_arg5)) shapeCasts_S128_S1x128 := by
  after_results_simp
  rfl

/-- The scale vector as a one-column matrix. -/
theorem stretch3_scale :
    StableHlo.after hostOps3 W (Proc.devRef .tc main_v57) = shapeCast S100000x1 (W (Proc.devRef .tc main_v10)) shapeCasts_S100000_S100000x1 := by
  after_results_simp
  rfl

/-- The third stretch leaves the second product as it was. -/
theorem hostOps3_keeps_main_v35 : StableHlo.after hostOps3 W (Proc.devRef .tc main_v35) = W (Proc.devRef .tc main_v35) := by
  after_results_simp

/-- The reference computes the scale once per layer, by the same operations of the same edge rows. -/
theorem scale_again (x1 : (⟨S2x1600000, .i32⟩ : BufTy).Contents (Elt F)) :
    Cert.ReferenceIdeal.Read.val_main_v51 (F := F) x1 = Cert.ReferenceIdeal.Read.val_main_v11 (F := F) x1 := rfl

end Cert.KernelIdeal.HostValue

end
-- ==== Proof.LibLayoutCol.lean ====
/-
  Two layout operations read at an index written by coordinates, for a column kept after a reduction along the
  rows' second axis: a vector of length a viewed as an [a, 1] column, and an [a, 1] column repeated along b columns.
  They complete the leading-unit-axis forms of the library's ValueLayout file.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Combine.lean ====
/-
  The per-node combination, entry by entry: the kernel's spelling is the reference's.

  At row r and column k the layer's output is  s r * agg (r, k) + (s r * s r) * h (r, k) + b k  (then, in the first
  layer, the maximum with zero), where s is the reciprocal root of one plus the in-degree, agg the aggregate, h the
  dense product and b the bias. The kernel reads s from a one-column matrix and b from a one-row matrix, and squares s
  inside the block; the reference broadcasts s, s * s and b to full matrices first. Entry by entry the two are the same
  expression: no law of arithmetic is used, only what each layout operation reads.
-/
import proofs.«167669_j44659069944275_1_alg».proof.KernelIdeal
import proofs.«167669_j44659069944275_1_alg».proof.Proof.Gen.ReferenceIdeal.Read
import proofs.«167669_j44659069944275_1_alg».proof.Proof.LibLayoutCol
import Idealize.ShloMosaic.Lib.ValueLayout
import Idealize.ShloMosaic.Lib.ValueIdx
import Idealize.ShloMosaic.Lib.Pipeline.Value

set_option maxRecDepth 16384

noncomputable section

namespace Cert.KernelIdeal.Bridge

open Idealize.ShloMosaic Idealize.ShloMosaic.ValueIdx
open Cert.KernelIdeal

/-- The first layer at entry (r, k), rectified. -/
theorem combine1_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (hc : S100000.ShapeCasts S100000x1) (hb : S64.ShapeCasts S1x64)
    (r : Fin 100000) (k : Fin 64) :
    max ((shapeCast S100000x1 (Cert.ReferenceIdeal.Read.val_main_v11 (F := Ideal) x1) hc : S100000x1.Idx → EReal) (ix2 r (0 : Fin 1))
            * (Cert.ReferenceIdeal.Read.val_main_v31 (F := Ideal) x0 x1 x2 : S100000x64.Idx → EReal) (ix2 r k)
          + ((shapeCast S100000x1 (Cert.ReferenceIdeal.Read.val_main_v11 (F := Ideal) x1) hc : S100000x1.Idx → EReal) (ix2 r (0 : Fin 1))
              * (shapeCast S100000x1 (Cert.ReferenceIdeal.Read.val_main_v11 (F := Ideal) x1) hc : S100000x1.Idx → EReal) (ix2 r (0 : Fin 1)))
            * (Cert.ReferenceIdeal.Read.val_main_v4 (F := Ideal) x0 x2 : S100000x64.Idx → EReal) (ix2 r k)
          + (shapeCast S1x64 x3 hb : S1x64.Idx → EReal) (ix2 (0 : Fin 1) k))
        (Ideal.ofBits .f32 0x00000000#32)
      = Cert.ReferenceIdeal.Read.val_main_v43 (F := Ideal) x0 x1 x2 x3 (ix2 r k) := by
  rw [shapeCast_a_a1_apply, shapeCast_a_1a_apply]
  rw [Cert.ReferenceIdeal.Read.val_main_v43_apply, Cert.ReferenceIdeal.Read.val_main_v42_apply, Cert.ReferenceIdeal.Read.val_main_v39_apply, Cert.ReferenceIdeal.Read.val_main_v34_apply,
    Cert.ReferenceIdeal.Read.val_main_v38_apply, Cert.ReferenceIdeal.Read.val_main_v33_apply, Cert.ReferenceIdeal.Read.val_main_v32_apply, Cert.ReferenceIdeal.Read.val_main_v37_apply,
    Cert.ReferenceIdeal.Read.val_main_v36_apply, Cert.ReferenceIdeal.Read.val_main_v35_apply, Cert.ReferenceIdeal.Read.val_main_v41_apply, Cert.ReferenceIdeal.Read.val_main_v40_apply,
    Cert.ReferenceIdeal.Read.val_main_call0_v0_apply, Cert.ReferenceIdeal.Read.val_main_call0_cst_apply]
  have e1 : Cert.ReferenceIdeal.Read.idx_main_v32 (Cert.ReferenceIdeal.Read.idx_main_v33 (ix2 r k)) = ix1 r := funext fun a => match a with | ⟨0, _⟩ => rfl
  have e2 : Cert.ReferenceIdeal.Read.idx_main_v36 (Cert.ReferenceIdeal.Read.idx_main_v37 (ix2 r k)) = ix1 r := funext fun a => match a with | ⟨0, _⟩ => rfl
  have e3 : Cert.ReferenceIdeal.Read.idx_main_v40 (Cert.ReferenceIdeal.Read.idx_main_v41 (ix2 r k)) = ix1 k := funext fun a => match a with | ⟨0, _⟩ => rfl
  rw [e1, e2, e3]
  rfl

/-- The second layer at entry (r, k). -/
theorem combine2_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x128, .f32⟩ : BufTy).Contents (Elt Ideal)) (x5 : (⟨S128, .f32⟩ : BufTy).Contents (Elt Ideal))
    (hc : S100000.ShapeCasts S100000x1) (hb : S128.ShapeCasts S1x128)
    (r : Fin 100000) (k : Fin 128) :
    (shapeCast S100000x1 (Cert.ReferenceIdeal.Read.val_main_v11 (F := Ideal) x1) hc : S100000x1.Idx → EReal) (ix2 r (0 : Fin 1))
          * (Cert.ReferenceIdeal.Read.val_main_v71 (F := Ideal) x0 x1 x2 x3 x4 : S100000x128.Idx → EReal) (ix2 r k)
        + ((shapeCast S100000x1 (Cert.ReferenceIdeal.Read.val_main_v11 (F := Ideal) x1) hc : S100000x1.Idx → EReal) (ix2 r (0 : Fin 1))
            * (shapeCast S100000x1 (Cert.ReferenceIdeal.Read.val_main_v11 (F := Ideal) x1) hc : S100000x1.Idx → EReal) (ix2 r (0 : Fin 1)))
          * (Cert.ReferenceIdeal.Read.val_main_v44 (F := Ideal) x0 x1 x2 x3 x4 : S100000x128.Idx → EReal) (ix2 r k)
        + (shapeCast S1x128 x5 hb : S1x128.Idx → EReal) (ix2 (0 : Fin 1) k)
      = Cert.ReferenceIdeal.Read.val_main_v82 (F := Ideal) x0 x1 x2 x3 x4 x5 (ix2 r k) := by
  rw [shapeCast_a_a1_apply, shapeCast_a_1a_apply]
  rw [Cert.ReferenceIdeal.Read.val_main_v82_apply, Cert.ReferenceIdeal.Read.val_main_v79_apply, Cert.ReferenceIdeal.Read.val_main_v74_apply,
    Cert.ReferenceIdeal.Read.val_main_v78_apply, Cert.ReferenceIdeal.Read.val_main_v73_apply, Cert.ReferenceIdeal.Read.val_main_v72_apply, Cert.ReferenceIdeal.Read.val_main_v77_apply,
    Cert.ReferenceIdeal.Read.val_main_v76_apply, Cert.ReferenceIdeal.Read.val_main_v75_apply, Cert.ReferenceIdeal.Read.val_main_v81_apply, Cert.ReferenceIdeal.Read.val_main_v80_apply]
  have e1 : Cert.ReferenceIdeal.Read.idx_main_v72 (Cert.ReferenceIdeal.Read.idx_main_v73 (ix2 r k)) = ix1 r := funext fun a => match a with | ⟨0, _⟩ => rfl
  have e2 : Cert.ReferenceIdeal.Read.idx_main_v76 (Cert.ReferenceIdeal.Read.idx_main_v77 (ix2 r k)) = ix1 r := funext fun a => match a with | ⟨0, _⟩ => rfl
  have e3 : Cert.ReferenceIdeal.Read.idx_main_v80 (Cert.ReferenceIdeal.Read.idx_main_v81 (ix2 r k)) = ix1 k := funext fun a => match a with | ⟨0, _⟩ => rfl
  rw [e1, e2, e3]
  rfl

end Cert.KernelIdeal.Bridge

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.Region0.lean ====
/-
  The value of the product region's output array: every entry (r, j) of the [100000, 64] result is the sum over
  k : Fin 128 of the left array at (r, k) times the right array at (k, j). The region computes it block by block: grid point t
  takes rows 5000 t … 5000 t + 4999 of the left array and the whole right array, forms their product into a zero
  accumulator (the operands' conversions are the identity at the exact instance) and writes it to the same rows of the
  result. The twenty blocks cover the 100000 rows, so the result is the whole product.
-/
import proofs.«167669_j44659069944275_1_alg».proof.Proof.Gen.KernelIdeal.Frame
import proofs.«167669_j44659069944275_1_alg».proof.Proof.Gen.ReferenceIdeal
import proofs.«167669_j44659069944275_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx (ix2)

/-! ## The block product and the whole product, each read at an entry -/

/-- The left operand's row coordinate, in a block product, is the entry's row. -/
theorem blockLhs0_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

/-- The right operand's column coordinate, in a block product, is the entry's column. -/
theorem blockRhs0_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block product at entry (p, j): the sum over k of the left block at (p, k) times the right block at (k, j). -/
theorem blockProduct0_apply (x0 : Vec Ideal S5000x128 .f32) (x1 : Vec Ideal S128x64 .f32) (p : Fin 5000) (j : Fin 64) :
    k0_pay1 x0 x1 (ix2 p j) = ∑ k : Fin 128, x0 (ix2 p k) * x1 (ix2 k j) := by
  unfold k0_pay1
  refine (Cert.LibPlainDot.matmul_zero_apply dot_S5000x128_S128x64_S5000x64_1_0_0_1_n_n none 128 rfl rfl _ _ (ix2 p j)
    (fun k => ix2 p k) (fun k => ix2 k j)
    (fun q => Cert.LibPlainDot.ext2 _ _ (blockLhs0_row _ q) (dot_S5000x128_S128x64_S5000x64_1_0_0_1_n_n.lhsIdx_val_of_single rfl _ q))
    (fun q => Cert.LibPlainDot.ext2 _ _ (dot_S5000x128_S128x64_S5000x64_1_0_0_1_n_n.rhsIdx_val_of_single rfl _ q) (blockRhs0_col _ q))).trans ?_
  rfl

/-- The left operand's row coordinate, in the whole product, is the entry's row. -/
theorem wholeLhs0_row (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
  rfl

/-- The right operand's column coordinate, in the whole product, is the entry's column. -/
theorem wholeRhs0_col (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
  rfl

/-- The whole product at entry (r, j): the sum over k of the left array at (r, k) times the right array at (k, j). -/
theorem wholeProduct0_apply (a : FVec Ideal S100000x128 .f32) (b : FVec Ideal S128x64 .f32) (r : Fin 100000) (j : Fin 64) :
    Host.dotGeneral (F := Ideal) Cert.ReferenceIdeal.dot_S100000x128_S128x64_S100000x64_1_0_0_1_n_n none a b (ix2 r j) = ∑ k : Fin 128, a (ix2 r k) * b (ix2 k j) := by
  simp only [Host.dotGeneral]
  exact Cert.LibPlainDot.dotGeneral_apply Cert.ReferenceIdeal.dot_S100000x128_S128x64_S100000x64_1_0_0_1_n_n none _ 128 rfl rfl a b (ix2 r j)
    (fun k => ix2 r k) (fun k => ix2 k j)
    (fun q => Cert.LibPlainDot.ext2 _ _ (wholeLhs0_row _ q) (Cert.ReferenceIdeal.dot_S100000x128_S128x64_S100000x64_1_0_0_1_n_n.lhsIdx_val_of_single rfl _ q))
    (fun q => Cert.LibPlainDot.ext2 _ _ (Cert.ReferenceIdeal.dot_S100000x128_S128x64_S100000x64_1_0_0_1_n_n.rhsIdx_val_of_single rfl _ q) (wholeRhs0_col _ q))

/-- An entry of a block product is an entry of the whole product when the block's row is the array's row (`hrow`)
    and the right block's column is the right array's column (`hcol`). -/
theorem block0_entry (x0 : Vec Ideal S5000x128 .f32) (x1 : Vec Ideal S128x64 .f32)
    (a : FVec Ideal S100000x128 .f32) (b : FVec Ideal S128x64 .f32) (y : S5000x64.Idx) (i : S100000x64.Idx)
    (hrow : ∀ k : Fin 128, x0 (ix2 (y 0) k) = a (ix2 (i 0) k))
    (hcol : ∀ k : Fin 128, x1 (ix2 k (y 1)) = b (ix2 k (i 1))) :
    k0_pay1 x0 x1 y = Host.dotGeneral (F := Ideal) Cert.ReferenceIdeal.dot_S100000x128_S128x64_S100000x64_1_0_0_1_n_n none a b i := by
  have hy := ValueIdx.eq_ix2 (n0 := 5000) (n1 := 64) y
  have hi := ValueIdx.eq_ix2 (n0 := 100000) (n1 := 64) i
  calc k0_pay1 x0 x1 y = k0_pay1 x0 x1 (ix2 (y 0) (y 1)) := congrArg (k0_pay1 x0 x1) hy
    _ = ∑ k : Fin 128, x0 (ix2 (y 0) k) * x1 (ix2 k (y 1)) := blockProduct0_apply x0 x1 (y 0) (y 1)
    _ = ∑ k : Fin 128, a (ix2 (i 0) k) * b (ix2 k (i 1)) := Finset.sum_congr rfl fun k _ => congrArg₂ (· * ·) (hrow k) (hcol k)
    _ = Host.dotGeneral (F := Ideal) Cert.ReferenceIdeal.dot_S100000x128_S128x64_S100000x64_1_0_0_1_n_n none a b (ix2 (i 0) (i 1)) := (wholeProduct0_apply a b (i 0) (i 1)).symm
    _ = Host.dotGeneral (F := Ideal) Cert.ReferenceIdeal.dot_S100000x128_S128x64_S100000x64_1_0_0_1_n_n none a b i := (congrArg (Host.dotGeneral (F := Ideal) Cert.ReferenceIdeal.dot_S100000x128_S128x64_S100000x64_1_0_0_1_n_n none a b) hi).symm

/-! ## From the blocks to the array -/

/-- The zero offsets of a whole-buffer access. -/
theorem zeroOffsets0 : (![0, 0] : Fin 2 → Nat) = fun _ => 0 := funext fun a => by fin_cases a <;> rfl

/-- The printed index maps, decided over the grid: the left array's and the result's block at point t is block (t, 0),
    the right array's is block (0, 0). -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the region's input arrays. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S100000x128_S128x64_S100000x64_1_0_0_1_n_n none (V c main_arg0) (V c main_arg2)) := by
  show (cfg0.win 2).cut (grid0.coords t) ((dat0 V c).after 2 t) = _
  rw [after0_2]
  unfold out0_2
  rw [View.canon_unit_zero zeroOffsets0]
  simp only [View.ld_unit_zero (S := S5000x128) zeroOffsets0, View.ld_unit_zero (S := S128x64) zeroOffsets0]
  obtain ⟨e0, e1, e2, e3, e4, e5⟩ := blockIndex0 t
  funext y
  show k0_pay1 (iblk0 V c 0 t) (iblk0 V c 1 t) y
    = Host.dotGeneral (F := Ideal) (φ₁ := .f32) (φ₂ := .f32) Cert.ReferenceIdeal.dot_S100000x128_S128x64_S100000x64_1_0_0_1_n_n none (V c main_arg0) (V c main_arg2) (((cfg0.win 2).blk t).view.emb y)
  refine block0_entry (iblk0 V c 0 t) (iblk0 V c 1 t) (V c main_arg0) (V c main_arg2) y (((cfg0.win 2).blk t).view.emb y) ?_ ?_
  · intro k
    show V c main_arg0 (((cfg0.win 0).blk t).view.emb (ix2 (y 0) k)) = V c main_arg0 (ix2 ((((cfg0.win 2).blk t).view.emb y) 0) k)
    refine congrArg (V c main_arg0) (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  · intro k
    show V c main_arg2 (((cfg0.win 1).blk t).view.emb (ix2 k (y 1))) = V c main_arg2 (ix2 k ((((cfg0.win 2).blk t).view.emb y) 1))
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * (y 1).val = win0_2.index t (1 : Fin 2) * 64 + 1 * (y 1).val; omega

/-- An index of the result array is in point t's block iff each coordinate is in the block's range on its axis. -/
theorem mem_block0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v11).slice (win0_2.rect t)).set ↔ _
  rw [View.set_slice_whole, Rect.mem_set_unit]
  exact Iff.rfl

/-- Every row r of the result lies in the block of point r / 5000, which is written back. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  have ht : (i 0).val / 5000 < cfg0.N := by show (i 0).val / 5000 < grid0.N; omega
  obtain ⟨e0, e1, e2, e3, e4, e5⟩ := blockIndex0 ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_block0]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; omega
  | ⟨1, _⟩ => show win0_2.index ⟨(i 0).val / 5000, ht⟩ (1 : Fin 2) * 64 ≤ (i 1).val ∧ (i 1).val < win0_2.index ⟨(i 0).val / 5000, ht⟩ (1 : Fin 2) * 64 + 64; omega

/-- The result array after the region is the whole product of the region's input arrays. -/
theorem final0 (V : (c : Dev nD) → (b : Ref sig .tc) → Buf (Elt Ideal) ((c : Thread nD τ).loc b)) (c : Dev nD) :
    (Gen.dat0 (F := Ideal) V c).arrAt 2 cfg0.N
      = Host.dotGeneral (F := Ideal) (φ₁ := .f32) (φ₂ := .f32) Cert.ReferenceIdeal.dot_S100000x128_S128x64_S100000x64_1_0_0_1_n_n none (V c main_arg0) (V c main_arg2) :=
  (dat0 (F := Ideal) V c).arrAt_eq_of_cover 2
    (Host.dotGeneral (F := Ideal) (φ₁ := .f32) (φ₂ := .f32) Cert.ReferenceIdeal.dot_S100000x128_S128x64_S100000x64_1_0_0_1_n_n none (V c main_arg0) (V c main_arg2))
    (fun t _ => flushed0_eq V c t) cover0

end Cert.KernelIdeal.Regions

end
-- ==== Proof.Region1.lean ====
/-
  The value of the first combine region's output array after the region, as one function of the region's input
  arrays at the region's entry.

  The region walks the `[100000, 64]` arrays in 20 blocks of 5000 rows. At each block the body forms, entry by entry,

      scale r * agg (r, k) + (scale r * scale r) * h (r, k) + bias k,   then the maximum of that with zero,

  where `scale` is a `[100000, 1]` column read along the rows, `bias` a `[1, 64]` row read along the columns, and
  `agg`, `h` are `[100000, 64]` arrays. Every row lies in exactly one block (row `r` in block `r / 5000`), every block is
  written back, and what a block writes back is the block of ONE whole-array function of the inputs; so the output array
  ends holding that function.
-/
import proofs.«167669_j44659069944275_1_alg».proof.Proof.Gen.KernelIdeal.Frame
import proofs.«167669_j44659069944275_1_alg».proof.Proof.LibLayoutCol
import Idealize.ShloMosaic.Lib.Pipeline.Value
import Idealize.ShloMosaic.Lib.ValueIdx
import Idealize.ShloMosaic.Lib.ValueLayout

-- membership in a rectangle of full-size extents: the elaborator's structural look recurses once per coordinate
set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

/-! ## The body at one entry of a block -/

/-- The body's result at entry `(p, k)` of a block: the shape casts are to the same shape, the scale column repeated
    along the columns reads its row `p`, the bias row repeated along the rows reads its column `k`, and the products,
    sums, and the maximum with the repeated zero are entry by entry. -/
theorem combineRelu1_block_apply (x0 : Vec Ideal S5000x1 .f32) (x2 : Vec Ideal S5000x64 .f32) (x4 : Vec Ideal S5000x64 .f32)
    (x6 : Vec Ideal S1x64 .f32) (p : Fin 5000) (k : Fin 64) :
    k1_pay1 x0 x2 x4 x6 (ix2 p k)
      = max (x0 (ix2 p (0 : Fin 1)) * x2 (ix2 p k) + (x0 (ix2 p (0 : Fin 1)) * x0 (ix2 p (0 : Fin 1))) * x4 (ix2 p k) + x6 (ix2 (0 : Fin 1) k))
          (Ideal.ofBits .f32 0x00000000#32) := by
  unfold k1_pay1
  simp only [shapeCast_self]
  rw [maximumf_apply, addf_apply, addf_apply, mulf_apply, mulf_apply, broadcastTo_a1_ab_apply, broadcastTo_a1_ab_apply,
    mulf_apply, broadcastTo_1b_ab_apply, broadcast_apply]
  rfl

/-! ## The whole-array function -/

/-- The output array as one function of the input arrays: at `(r, k)`, the scale of row `r` times the aggregate, plus the
    scale's square times the features, plus the bias of column `k`; then the maximum with zero. -/
def combineRelu1 (s : S100000x1.Idx → EReal) (a : S100000x64.Idx → EReal) (h : S100000x64.Idx → EReal) (b : S1x64.Idx → EReal) :
    S100000x64.Idx → EReal := fun i =>
  max (s (ix2 (⟨(i 0).val, idx2_lt0 i⟩ : Fin 100000) (0 : Fin 1)) * a i + (s (ix2 (⟨(i 0).val, idx2_lt0 i⟩ : Fin 100000) (0 : Fin 1)) * s (ix2 (⟨(i 0).val, idx2_lt0 i⟩ : Fin 100000) (0 : Fin 1))) * h i + b (ix2 (0 : Fin 1) (⟨(i 1).val, idx2_lt1 i⟩ : Fin 64)))
    (Ideal.ofBits .f32 0x00000000#32)

/-- The function at an index written by its coordinates. -/
theorem combineRelu1_apply (s : S100000x1.Idx → EReal) (a : S100000x64.Idx → EReal) (h : S100000x64.Idx → EReal) (b : S1x64.Idx → EReal)
    (r : Fin 100000) (k : Fin 64) :
    combineRelu1 s a h b (ix2 r k)
      = max (s (ix2 r (0 : Fin 1)) * a (ix2 r k) + (s (ix2 r (0 : Fin 1)) * s (ix2 r (0 : Fin 1))) * h (ix2 r k) + b (ix2 (0 : Fin 1) k))
          (Ideal.ofBits .f32 0x00000000#32) := rfl

/-- An entry of a block of the body's result is the function at an array index, when each loaded block's entry is its
    array's entry at that index (the column's at the index's row, the bias row's at the index's column). -/
theorem combineRelu1_block_entry (s : S100000x1.Idx → EReal) (a : S100000x64.Idx → EReal) (h : S100000x64.Idx → EReal) (b : S1x64.Idx → EReal)
    (x0 : Vec Ideal S5000x64 .f32) (x1 : Vec Ideal S5000x64 .f32) (x2 : Vec Ideal S5000x1 .f32) (x3 : Vec Ideal S1x64 .f32)
    (j : S5000x64.Idx) (i : S100000x64.Idx)
    (h0 : x0 j = a i) (h1 : x1 j = h i)
    (h2 : x2 (ix2 (⟨(j 0).val, idx2_lt0 j⟩ : Fin 5000) (0 : Fin 1)) = s (ix2 (⟨(i 0).val, idx2_lt0 i⟩ : Fin 100000) (0 : Fin 1)))
    (h3 : x3 (ix2 (0 : Fin 1) (⟨(j 1).val, idx2_lt1 j⟩ : Fin 64)) = b (ix2 (0 : Fin 1) (⟨(i 1).val, idx2_lt1 i⟩ : Fin 64))) :
    k1_pay1 x2 x0 x1 x3 j = combineRelu1 s a h b i := by
  have ej : j = ix2 (⟨(j 0).val, idx2_lt0 j⟩ : Fin 5000) (⟨(j 1).val, idx2_lt1 j⟩ : Fin 64) := eq_ix2 j
  refine (congrArg (k1_pay1 x2 x0 x1 x3) ej).trans ?_
  rw [combineRelu1_block_apply, ← ej, h0, h1, h2, h3]
  rfl

/-! ## The printed index maps, decided once over the grid -/

theorem zero_offsets1 : (![0, 0] : Fin 2 → Nat) = fun _ => 0 := funext fun a => by fin_cases a <;> rfl

/-- At every grid point the aggregate's, the features' and the scale column's blocks sit at the output block's row index;
    the column axis is never cut; the bias row's block is the whole row. -/
theorem block_indices1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (0 : Fin 2) ≤ 19
    ∧ win1_4.index t (1 : Fin 2) = 0 :=
  (by decide +kernel : ∀ t : Fin grid1.N, _)

/-- Every one of the 20 row blocks is some grid point's. -/
theorem block_onto1 : ∀ q : Fin 20, ∃ t : Fin cfg1.N, win1_4.index t (0 : Fin 2) = q.val ∧ win1_4.index t (1 : Fin 2) = 0 :=
  (by decide +kernel : ∀ q : Fin 20, ∃ t : Fin grid1.N, win1_4.index t (0 : Fin 2) = q.val ∧ win1_4.index t (1 : Fin 2) = 0)

/-! ## What a grid point writes back, and the array after the region -/

variable (V : (c : Dev nD) → (b : Ref sig .tc) → Buf (Elt Ideal) ((c : Thread nD τ).loc b))

/-- What grid point `t` writes back is block `t` of the whole-array function of the input arrays as the region finds them. -/
theorem flushed1_eq (c : Dev nD) (t : Fin cfg1.N) :
    (dat1 (F := Ideal) V c).flushed 4 t
      = ((cfg1.win 4).blk t).view.read (Elt Ideal)
          (combineRelu1 (V c main_v33) (V c main_v31) (V c main_v11) (V c main_v32)) := by
  show (cfg1.win 4).cut (grid1.coords t) ((dat1 (F := Ideal) V c).after 4 t) = _
  rw [after1_4]
  unfold out1_4
  rw [View.canon_unit_zero zero_offsets1]
  simp only [View.ld_unit_zero (S := S5000x64) zero_offsets1, View.ld_unit_zero (S := S5000x1) zero_offsets1,
    View.ld_unit_zero (S := S1x64) zero_offsets1]
  obtain ⟨e00, e01, e10, e11, e20, e21, e30, e31, e40, e41⟩ := block_indices1 t
  funext j
  have hj0 : (j 0).val < 5000 := (j 0).isLt
  have hj1 : (j 1).val < 64 := (j 1).isLt
  refine combineRelu1_block_entry (V c main_v33) (V c main_v31) (V c main_v11) (V c main_v32) _ _ _ _ j
    (((cfg1.win 4).blk t).view.emb j) ?_ ?_ ?_ ?_
  · show V c main_v31 (((cfg1.win 0).blk t).view.emb j) = V c main_v31 (((cfg1.win 4).blk t).view.emb j)
    refine congrArg (V c main_v31) (funext fun ax => Fin.ext ?_)
    match ax with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * (j 1).val = win1_4.index t (1 : Fin 2) * 64 + 1 * (j 1).val; omega
  · show V c main_v11 (((cfg1.win 1).blk t).view.emb j) = V c main_v11 (((cfg1.win 4).blk t).view.emb j)
    refine congrArg (V c main_v11) (funext fun ax => Fin.ext ?_)
    match ax with
    | ⟨0, _⟩ => show win1_1.index t (0 : Fin 2) * 5000 + 1 * (j 0).val = win1_4.index t (0 : Fin 2) * 5000 + 1 * (j 0).val; omega
    | ⟨1, _⟩ => show win1_1.index t (1 : Fin 2) * 64 + 1 * (j 1).val = win1_4.index t (1 : Fin 2) * 64 + 1 * (j 1).val; omega
  · show V c main_v33 (((cfg1.win 2).blk t).view.emb (ix2 (⟨(j 0).val, hj0⟩ : Fin 5000) (0 : Fin 1))) = _
    refine congrArg (V c main_v33) (funext fun ax => Fin.ext ?_)
    match ax with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  · show V c main_v32 (((cfg1.win 3).blk t).view.emb (ix2 (0 : Fin 1) (⟨(j 1).val, hj1⟩ : Fin 64))) = _
    refine congrArg (V c main_v32) (funext fun ax => Fin.ext ?_)
    match ax with
    | ⟨0, _⟩ => show win1_3.index t (0 : Fin 2) * 1 + 1 * 0 = 0; omega
    | ⟨1, _⟩ => show win1_3.index t (1 : Fin 2) * 64 + 1 * (j 1).val = win1_4.index t (1 : Fin 2) * 64 + 1 * (j 1).val; omega

/-- An index of the output array is in grid point `t`'s block iff each coordinate is in the block's range on its axis. -/
theorem mem_block1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v34).slice (win1_4.rect t)).set ↔ _
  rw [View.set_slice_whole, Rect.mem_set_unit]
  exact Iff.rfl

/-- Every index of the output array is in some written-back block: row `r` lies in the block of row index `r / 5000`. -/
theorem covered1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, q0, q1⟩ := block_onto1 ⟨(i 0).val / 5000, by omega⟩
  have q0' : win1_4.index t (0 : Fin 2) = (i 0).val / 5000 := q0
  refine ⟨t, flush1_4 t, ?_⟩
  rw [mem_block1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The output array after the region is the whole-array function of the input arrays as the region finds them. -/
theorem array1 (c : Dev nD) :
    (dat1 (F := Ideal) V c).arrAt 4 cfg1.N
      = combineRelu1 (V c main_v33) (V c main_v31) (V c main_v11) (V c main_v32) :=
  (dat1 (F := Ideal) V c).arrAt_eq_of_cover 4 _ (fun t _ => flushed1_eq V c t) (covered1)

/-- The output array after the region, entry by entry: with the four input arrays named as functions into the extended
    reals (the scale column `s`, the aggregate `a`, the features `h`, the bias row `b`), entry `(r, k)` is
    `s r * a (r, k) + (s r * s r) * h (r, k) + b k`, then the maximum with zero. -/
theorem final1 (c : Dev nD) (s : S100000x1.Idx → EReal) (a : S100000x64.Idx → EReal) (h : S100000x64.Idx → EReal) (b : S1x64.Idx → EReal)
    (hs : s = V c main_v33) (ha : a = V c main_v31) (hh : h = V c main_v11) (hb : b = V c main_v32)
    (r : Fin 100000) (k : Fin 64) :
    (Gen.dat1 (F := Ideal) V c).arrAt 4 cfg1.N (ix2 r k)
      = max (s (ix2 r (0 : Fin 1)) * a (ix2 r k) + (s (ix2 r (0 : Fin 1)) * s (ix2 r (0 : Fin 1))) * h (ix2 r k) + b (ix2 (0 : Fin 1) k))
          (Ideal.ofBits .f32 0x00000000#32) := by
  subst hs ha hh hb
  exact (congrFun (array1 V c) (ix2 r k)).trans (combineRelu1_apply _ _ _ _ r k)

end Cert.KernelIdeal.Regions

end
-- ==== Proof.Region2.lean ====
/-
  The value of the product region's output array: every entry (r, j) of the [100000, 128] result is the sum over
  k : Fin 64 of the left array at (r, k) times the right array at (k, j). The region computes it block by block: grid point t
  takes rows 5000 t … 5000 t + 4999 of the left array and the whole right array, forms their product into a zero
  accumulator (the left block's cast to its own shape and the operands' conversions are the identity at the exact instance) and writes it to the same rows of the
  result. The twenty blocks cover the 100000 rows, so the result is the whole product.
-/
import proofs.«167669_j44659069944275_1_alg».proof.Proof.Gen.KernelIdeal.Frame
import proofs.«167669_j44659069944275_1_alg».proof.Proof.Gen.ReferenceIdeal
import proofs.«167669_j44659069944275_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx (ix2)

/-! ## The block product and the whole product, each read at an entry -/

/-- The left operand's row coordinate, in a block product, is the entry's row. -/
theorem blockLhs2_row (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl

/-- The right operand's column coordinate, in a block product, is the entry's column. -/
theorem blockRhs2_col (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The block product at entry (p, j): the sum over k of the left block at (p, k) times the right block at (k, j). -/
theorem blockProduct2_apply (x0 : Vec Ideal S5000x64 .f32) (x1 : Vec Ideal S64x128 .f32) (p : Fin 5000) (j : Fin 128) :
    k2_pay1 x0 x1 (ix2 p j) = ∑ k : Fin 64, x0 (ix2 p k) * x1 (ix2 k j) := by
  unfold k2_pay1
  refine (Cert.LibPlainDot.matmul_zero_apply dot_S5000x64_S64x128_S5000x128_1_0_0_1_n_n none 64 rfl rfl _ _ (ix2 p j)
    (fun k => ix2 p k) (fun k => ix2 k j)
    (fun q => Cert.LibPlainDot.ext2 _ _ (blockLhs2_row _ q) (dot_S5000x64_S64x128_S5000x128_1_0_0_1_n_n.lhsIdx_val_of_single rfl _ q))
    (fun q => Cert.LibPlainDot.ext2 _ _ (dot_S5000x64_S64x128_S5000x128_1_0_0_1_n_n.rhsIdx_val_of_single rfl _ q) (blockRhs2_col _ q))).trans ?_
  refine Finset.sum_congr rfl fun k _ => ?_
  exact congrArg (· * x1 (ix2 k j)) (congrFun (shapeCast_self x0 shapeCasts_S5000x64_S5000x64) (ix2 p k))

/-- The left operand's row coordinate, in the whole product, is the entry's row. -/
theorem wholeLhs2_row (i : S100000x128.Idx) (q : Cert.ReferenceIdeal.dot_S100000x64_S64x128_S100000x128_1_0_0_1_n_n.contr.Idx) :
    (Cert.ReferenceIdeal.dot_S100000x64_S64x128_S100000x128_1_0_0_1_n_n.lhsIdx i q 0).val = (i 0).val := by
  unfold DotDims.lhsIdx
  rw [dif_neg (show ¬(0 : Fin S100000x64.rank) ∈ Cert.ReferenceIdeal.dot_S100000x64_S64x128_S100000x128_1_0_0_1_n_n.lhsBatch by decide), dif_pos (show (0 : Fin S100000x64.rank) ∈ Cert.ReferenceIdeal.dot_S100000x64_S64x128_S100000x128_1_0_0_1_n_n.lhsNonContracting by decide)]
  rfl

/-- The right operand's column coordinate, in the whole product, is the entry's column. -/
theorem wholeRhs2_col (i : S100000x128.Idx) (q : Cert.ReferenceIdeal.dot_S100000x64_S64x128_S100000x128_1_0_0_1_n_n.contr.Idx) :
    (Cert.ReferenceIdeal.dot_S100000x64_S64x128_S100000x128_1_0_0_1_n_n.rhsIdx i q 1).val = (i 1).val := by
  unfold DotDims.rhsIdx
  rw [dif_neg (show ¬(1 : Fin S64x128.rank) ∈ Cert.ReferenceIdeal.dot_S100000x64_S64x128_S100000x128_1_0_0_1_n_n.rhsBatch by decide), dif_pos (show (1 : Fin S64x128.rank) ∈ Cert.ReferenceIdeal.dot_S100000x64_S64x128_S100000x128_1_0_0_1_n_n.rhsNonContracting by decide)]
  rfl

/-- The whole product at entry (r, j): the sum over k of the left array at (r, k) times the right array at (k, j). -/
theorem wholeProduct2_apply (a : FVec Ideal S100000x64 .f32) (b : FVec Ideal S64x128 .f32) (r : Fin 100000) (j : Fin 128) :
    Host.dotGeneral (F := Ideal) Cert.ReferenceIdeal.dot_S100000x64_S64x128_S100000x128_1_0_0_1_n_n none a b (ix2 r j) = ∑ k : Fin 64, a (ix2 r k) * b (ix2 k j) := by
  simp only [Host.dotGeneral]
  exact Cert.LibPlainDot.dotGeneral_apply Cert.ReferenceIdeal.dot_S100000x64_S64x128_S100000x128_1_0_0_1_n_n none _ 64 rfl rfl a b (ix2 r j)
    (fun k => ix2 r k) (fun k => ix2 k j)
    (fun q => Cert.LibPlainDot.ext2 _ _ (wholeLhs2_row _ q) (Cert.ReferenceIdeal.dot_S100000x64_S64x128_S100000x128_1_0_0_1_n_n.lhsIdx_val_of_single rfl _ q))
    (fun q => Cert.LibPlainDot.ext2 _ _ (Cert.ReferenceIdeal.dot_S100000x64_S64x128_S100000x128_1_0_0_1_n_n.rhsIdx_val_of_single rfl _ q) (wholeRhs2_col _ q))

/-- An entry of a block product is an entry of the whole product when the block's row is the array's row (`hrow`)
    and the right block's column is the right array's column (`hcol`). -/
theorem block2_entry (x0 : Vec Ideal S5000x64 .f32) (x1 : Vec Ideal S64x128 .f32)
    (a : FVec Ideal S100000x64 .f32) (b : FVec Ideal S64x128 .f32) (y : S5000x128.Idx) (i : S100000x128.Idx)
    (hrow : ∀ k : Fin 64, x0 (ix2 (y 0) k) = a (ix2 (i 0) k))
    (hcol : ∀ k : Fin 64, x1 (ix2 k (y 1)) = b (ix2 k (i 1))) :
    k2_pay1 x0 x1 y = Host.dotGeneral (F := Ideal) Cert.ReferenceIdeal.dot_S100000x64_S64x128_S100000x128_1_0_0_1_n_n none a b i := by
  have hy := ValueIdx.eq_ix2 (n0 := 5000) (n1 := 128) y
  have hi := ValueIdx.eq_ix2 (n0 := 100000) (n1 := 128) i
  calc k2_pay1 x0 x1 y = k2_pay1 x0 x1 (ix2 (y 0) (y 1)) := congrArg (k2_pay1 x0 x1) hy
    _ = ∑ k : Fin 64, x0 (ix2 (y 0) k) * x1 (ix2 k (y 1)) := blockProduct2_apply x0 x1 (y 0) (y 1)
    _ = ∑ k : Fin 64, a (ix2 (i 0) k) * b (ix2 k (i 1)) := Finset.sum_congr rfl fun k _ => congrArg₂ (· * ·) (hrow k) (hcol k)
    _ = Host.dotGeneral (F := Ideal) Cert.ReferenceIdeal.dot_S100000x64_S64x128_S100000x128_1_0_0_1_n_n none a b (ix2 (i 0) (i 1)) := (wholeProduct2_apply a b (i 0) (i 1)).symm
    _ = Host.dotGeneral (F := Ideal) Cert.ReferenceIdeal.dot_S100000x64_S64x128_S100000x128_1_0_0_1_n_n none a b i := (congrArg (Host.dotGeneral (F := Ideal) Cert.ReferenceIdeal.dot_S100000x64_S64x128_S100000x128_1_0_0_1_n_n none a b) hi).symm

/-! ## From the blocks to the array -/

/-- The zero offsets of a whole-buffer access. -/
theorem zeroOffsets2 : (![0, 0] : Fin 2 → Nat) = fun _ => 0 := funext fun a => by fin_cases a <;> rfl

/-- The printed index maps, decided over the grid: the left array's and the result's block at point t is block (t, 0),
    the right array's is block (0, 0). -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the region's input arrays. -/
theorem flushed2_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal)
      (Host.dotGeneral (F := Ideal) (φ₁ := .f32) (φ₂ := .f32) Cert.ReferenceIdeal.dot_S100000x64_S64x128_S100000x128_1_0_0_1_n_n none (V c main_v34) (V c main_arg4)) := by
  show (cfg2.win 2).cut (grid2.coords t) ((dat2 V c).after 2 t) = _
  rw [after2_2]
  unfold out2_2
  rw [View.canon_unit_zero zeroOffsets2]
  simp only [View.ld_unit_zero (S := S5000x64) zeroOffsets2, View.ld_unit_zero (S := S64x128) zeroOffsets2]
  obtain ⟨e0, e1, e2, e3, e4, e5⟩ := blockIndex2 t
  funext y
  show k2_pay1 (iblk2 V c 0 t) (iblk2 V c 1 t) y
    = Host.dotGeneral (F := Ideal) (φ₁ := .f32) (φ₂ := .f32) Cert.ReferenceIdeal.dot_S100000x64_S64x128_S100000x128_1_0_0_1_n_n none (V c main_v34) (V c main_arg4) (((cfg2.win 2).blk t).view.emb y)
  refine block2_entry (iblk2 V c 0 t) (iblk2 V c 1 t) (V c main_v34) (V c main_arg4) y (((cfg2.win 2).blk t).view.emb y) ?_ ?_
  · intro k
    show V c main_v34 (((cfg2.win 0).blk t).view.emb (ix2 (y 0) k)) = V c main_v34 (ix2 ((((cfg2.win 2).blk t).view.emb y) 0) k)
    refine congrArg (V c main_v34) (funext fun a => Fin.ext ?_)
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 64 + 1 * k.val = k.val; omega
  · intro k
    show V c main_arg4 (((cfg2.win 1).blk t).view.emb (ix2 k (y 1))) = V c main_arg4 (ix2 k ((((cfg2.win 2).blk t).view.emb y) 1))
    refine congrArg (V c main_arg4) (funext fun a => Fin.ext ?_)
    match a with
    | ⟨0, _⟩ => show win2_1.index t (0 : Fin 2) * 64 + 1 * k.val = k.val; omega
    | ⟨1, _⟩ => show win2_1.index t (1 : Fin 2) * 128 + 1 * (y 1).val = win2_2.index t (1 : Fin 2) * 128 + 1 * (y 1).val; omega

/-- An index of the result array is in point t's block iff each coordinate is in the block's range on its axis. -/
theorem mem_block2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v35).slice (win2_2.rect t)).set ↔ _
  rw [View.set_slice_whole, Rect.mem_set_unit]
  exact Iff.rfl

/-- Every row r of the result lies in the block of point r / 5000, which is written back. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 20 := N_2
  have ht : (i 0).val / 5000 < cfg2.N := by show (i 0).val / 5000 < grid2.N; omega
  obtain ⟨e0, e1, e2, e3, e4, e5⟩ := blockIndex2 ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [mem_block2]
  intro a
  match a with
  | ⟨0, _⟩ => show win2_2.index ⟨(i 0).val / 5000, ht⟩ (0 : Fin 2) * 5000 ≤ (i 0).val ∧ (i 0).val < win2_2.index ⟨(i 0).val / 5000, ht⟩ (0 : Fin 2) * 5000 + 5000; omega
  | ⟨1, _⟩ => show win2_2.index ⟨(i 0).val / 5000, ht⟩ (1 : Fin 2) * 128 ≤ (i 1).val ∧ (i 1).val < win2_2.index ⟨(i 0).val / 5000, ht⟩ (1 : Fin 2) * 128 + 128; omega

/-- The result array after the region is the whole product of the region's input arrays. -/
theorem final2 (V : (c : Dev nD) → (b : Ref sig .tc) → Buf (Elt Ideal) ((c : Thread nD τ).loc b)) (c : Dev nD) :
    (Gen.dat2 (F := Ideal) V c).arrAt 2 cfg2.N
      = Host.dotGeneral (F := Ideal) (φ₁ := .f32) (φ₂ := .f32) Cert.ReferenceIdeal.dot_S100000x64_S64x128_S100000x128_1_0_0_1_n_n none (V c main_v34) (V c main_arg4) :=
  (dat2 (F := Ideal) V c).arrAt_eq_of_cover 2
    (Host.dotGeneral (F := Ideal) (φ₁ := .f32) (φ₂ := .f32) Cert.ReferenceIdeal.dot_S100000x64_S64x128_S100000x128_1_0_0_1_n_n none (V c main_v34) (V c main_arg4))
    (fun t _ => flushed2_eq V c t) cover2

end Cert.KernelIdeal.Regions

end
-- ==== Proof.Region3.lean ====
/-
  The value of the second combine region's output array after the region, as one function of the region's input
  arrays at the region's entry.

  The region walks the `[100000, 128]` arrays in 20 blocks of 5000 rows. At each block the body forms, entry by entry,

      scale r * agg (r, k) + (scale r * scale r) * h (r, k) + bias k,

  where `scale` is a `[100000, 1]` column read along the rows, `bias` a `[1, 128]` row read along the columns, and
  `agg`, `h` are `[100000, 128]` arrays. Every row lies in exactly one block (row `r` in block `r / 5000`), every block is
  written back, and what a block writes back is the block of ONE whole-array function of the inputs; so the output array
  ends holding that function.
-/
import proofs.«167669_j44659069944275_1_alg».proof.Proof.Gen.KernelIdeal.Frame
import proofs.«167669_j44659069944275_1_alg».proof.Proof.LibLayoutCol
import Idealize.ShloMosaic.Lib.Pipeline.Value
import Idealize.ShloMosaic.Lib.ValueIdx
import Idealize.ShloMosaic.Lib.ValueLayout

-- membership in a rectangle of full-size extents: the elaborator's structural look recurses once per coordinate
set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

/-! ## The body at one entry of a block -/

/-- The body's result at entry `(p, k)` of a block: the shape casts are to the same shape, the scale column repeated
    along the columns reads its row `p`, the bias row repeated along the rows reads its column `k`, and the products,
    sums are entry by entry. -/
theorem combine3_block_apply (x0 : Vec Ideal S5000x1 .f32) (x2 : Vec Ideal S5000x128 .f32) (x4 : Vec Ideal S5000x128 .f32)
    (x6 : Vec Ideal S1x128 .f32) (p : Fin 5000) (k : Fin 128) :
    k3_pay1 x0 x2 x4 x6 (ix2 p k)
      = x0 (ix2 p (0 : Fin 1)) * x2 (ix2 p k) + (x0 (ix2 p (0 : Fin 1)) * x0 (ix2 p (0 : Fin 1))) * x4 (ix2 p k) + x6 (ix2 (0 : Fin 1) k) := by
  unfold k3_pay1
  simp only [shapeCast_self]
  rw [addf_apply, addf_apply, mulf_apply, mulf_apply, broadcastTo_a1_ab_apply, broadcastTo_a1_ab_apply,
    mulf_apply, broadcastTo_1b_ab_apply]

/-! ## The whole-array function -/

/-- The output array as one function of the input arrays: at `(r, k)`, the scale of row `r` times the aggregate, plus the
    scale's square times the features, plus the bias of column `k`. -/
def combine3 (s : S100000x1.Idx → EReal) (a : S100000x128.Idx → EReal) (h : S100000x128.Idx → EReal) (b : S1x128.Idx → EReal) :
    S100000x128.Idx → EReal := fun i =>
  s (ix2 (⟨(i 0).val, idx2_lt0 i⟩ : Fin 100000) (0 : Fin 1)) * a i + (s (ix2 (⟨(i 0).val, idx2_lt0 i⟩ : Fin 100000) (0 : Fin 1)) * s (ix2 (⟨(i 0).val, idx2_lt0 i⟩ : Fin 100000) (0 : Fin 1))) * h i + b (ix2 (0 : Fin 1) (⟨(i 1).val, idx2_lt1 i⟩ : Fin 128))

/-- The function at an index written by its coordinates. -/
theorem combine3_apply (s : S100000x1.Idx → EReal) (a : S100000x128.Idx → EReal) (h : S100000x128.Idx → EReal) (b : S1x128.Idx → EReal)
    (r : Fin 100000) (k : Fin 128) :
    combine3 s a h b (ix2 r k)
      = s (ix2 r (0 : Fin 1)) * a (ix2 r k) + (s (ix2 r (0 : Fin 1)) * s (ix2 r (0 : Fin 1))) * h (ix2 r k) + b (ix2 (0 : Fin 1) k) := rfl

/-- An entry of a block of the body's result is the function at an array index, when each loaded block's entry is its
    array's entry at that index (the column's at the index's row, the bias row's at the index's column). -/
theorem combine3_block_entry (s : S100000x1.Idx → EReal) (a : S100000x128.Idx → EReal) (h : S100000x128.Idx → EReal) (b : S1x128.Idx → EReal)
    (x0 : Vec Ideal S5000x128 .f32) (x1 : Vec Ideal S5000x128 .f32) (x2 : Vec Ideal S5000x1 .f32) (x3 : Vec Ideal S1x128 .f32)
    (j : S5000x128.Idx) (i : S100000x128.Idx)
    (h0 : x0 j = a i) (h1 : x1 j = h i)
    (h2 : x2 (ix2 (⟨(j 0).val, idx2_lt0 j⟩ : Fin 5000) (0 : Fin 1)) = s (ix2 (⟨(i 0).val, idx2_lt0 i⟩ : Fin 100000) (0 : Fin 1)))
    (h3 : x3 (ix2 (0 : Fin 1) (⟨(j 1).val, idx2_lt1 j⟩ : Fin 128)) = b (ix2 (0 : Fin 1) (⟨(i 1).val, idx2_lt1 i⟩ : Fin 128))) :
    k3_pay1 x2 x0 x1 x3 j = combine3 s a h b i := by
  have ej : j = ix2 (⟨(j 0).val, idx2_lt0 j⟩ : Fin 5000) (⟨(j 1).val, idx2_lt1 j⟩ : Fin 128) := eq_ix2 j
  refine (congrArg (k3_pay1 x2 x0 x1 x3) ej).trans ?_
  rw [combine3_block_apply, ← ej, h0, h1, h2, h3]
  rfl

/-! ## The printed index maps, decided once over the grid -/

theorem zero_offsets3 : (![0, 0] : Fin 2 → Nat) = fun _ => 0 := funext fun a => by fin_cases a <;> rfl

/-- At every grid point the aggregate's, the features' and the scale column's blocks sit at the output block's row index;
    the column axis is never cut; the bias row's block is the whole row. -/
theorem block_indices3 : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (0 : Fin 2) ≤ 19
    ∧ win3_4.index t (1 : Fin 2) = 0 :=
  (by decide +kernel : ∀ t : Fin grid3.N, _)

/-- Every one of the 20 row blocks is some grid point's. -/
theorem block_onto3 : ∀ q : Fin 20, ∃ t : Fin cfg3.N, win3_4.index t (0 : Fin 2) = q.val ∧ win3_4.index t (1 : Fin 2) = 0 :=
  (by decide +kernel : ∀ q : Fin 20, ∃ t : Fin grid3.N, win3_4.index t (0 : Fin 2) = q.val ∧ win3_4.index t (1 : Fin 2) = 0)

/-! ## What a grid point writes back, and the array after the region -/

variable (V : (c : Dev nD) → (b : Ref sig .tc) → Buf (Elt Ideal) ((c : Thread nD τ).loc b))

/-- What grid point `t` writes back is block `t` of the whole-array function of the input arrays as the region finds them. -/
theorem flushed3_eq (c : Dev nD) (t : Fin cfg3.N) :
    (dat3 (F := Ideal) V c).flushed 4 t
      = ((cfg3.win 4).blk t).view.read (Elt Ideal)
          (combine3 (V c main_v57) (V c main_v55) (V c main_v35) (V c main_v56)) := by
  show (cfg3.win 4).cut (grid3.coords t) ((dat3 (F := Ideal) V c).after 4 t) = _
  rw [after3_4]
  unfold out3_4
  rw [View.canon_unit_zero zero_offsets3]
  simp only [View.ld_unit_zero (S := S5000x128) zero_offsets3, View.ld_unit_zero (S := S5000x1) zero_offsets3,
    View.ld_unit_zero (S := S1x128) zero_offsets3]
  obtain ⟨e00, e01, e10, e11, e20, e21, e30, e31, e40, e41⟩ := block_indices3 t
  funext j
  have hj0 : (j 0).val < 5000 := (j 0).isLt
  have hj1 : (j 1).val < 128 := (j 1).isLt
  refine combine3_block_entry (V c main_v57) (V c main_v55) (V c main_v35) (V c main_v56) _ _ _ _ j
    (((cfg3.win 4).blk t).view.emb j) ?_ ?_ ?_ ?_
  · show V c main_v55 (((cfg3.win 0).blk t).view.emb j) = V c main_v55 (((cfg3.win 4).blk t).view.emb j)
    refine congrArg (V c main_v55) (funext fun ax => Fin.ext ?_)
    match ax with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  · show V c main_v35 (((cfg3.win 1).blk t).view.emb j) = V c main_v35 (((cfg3.win 4).blk t).view.emb j)
    refine congrArg (V c main_v35) (funext fun ax => Fin.ext ?_)
    match ax with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  · show V c main_v57 (((cfg3.win 2).blk t).view.emb (ix2 (⟨(j 0).val, hj0⟩ : Fin 5000) (0 : Fin 1))) = _
    refine congrArg (V c main_v57) (funext fun ax => Fin.ext ?_)
    match ax with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  · show V c main_v56 (((cfg3.win 3).blk t).view.emb (ix2 (0 : Fin 1) (⟨(j 1).val, hj1⟩ : Fin 128))) = _
    refine congrArg (V c main_v56) (funext fun ax => Fin.ext ?_)
    match ax with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega

/-- An index of the output array is in grid point `t`'s block iff each coordinate is in the block's range on its axis. -/
theorem mem_block3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v58).slice (win3_4.rect t)).set ↔ _
  rw [View.set_slice_whole, Rect.mem_set_unit]
  exact Iff.rfl

/-- Every index of the output array is in some written-back block: row `r` lies in the block of row index `r / 5000`. -/
theorem covered3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, q0, q1⟩ := block_onto3 ⟨(i 0).val / 5000, by omega⟩
  have q0' : win3_4.index t (0 : Fin 2) = (i 0).val / 5000 := q0
  refine ⟨t, flush3_4 t, ?_⟩
  rw [mem_block3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The output array after the region is the whole-array function of the input arrays as the region finds them. -/
theorem array3 (c : Dev nD) :
    (dat3 (F := Ideal) V c).arrAt 4 cfg3.N
      = combine3 (V c main_v57) (V c main_v55) (V c main_v35) (V c main_v56) :=
  (dat3 (F := Ideal) V c).arrAt_eq_of_cover 4 _ (fun t _ => flushed3_eq V c t) (covered3)

/-- The output array after the region, entry by entry: with the four input arrays named as functions into the extended
    reals (the scale column `s`, the aggregate `a`, the features `h`, the bias row `b`), entry `(r, k)` is
    `s r * a (r, k) + (s r * s r) * h (r, k) + b k`. -/
theorem final3 (c : Dev nD) (s : S100000x1.Idx → EReal) (a : S100000x128.Idx → EReal) (h : S100000x128.Idx → EReal) (b : S1x128.Idx → EReal)
    (hs : s = V c main_v57) (ha : a = V c main_v55) (hh : h = V c main_v35) (hb : b = V c main_v56)
    (r : Fin 100000) (k : Fin 128) :
    (Gen.dat3 (F := Ideal) V c).arrAt 4 cfg3.N (ix2 r k)
      = s (ix2 r (0 : Fin 1)) * a (ix2 r k) + (s (ix2 r (0 : Fin 1)) * s (ix2 r (0 : Fin 1))) * h (ix2 r k) + b (ix2 (0 : Fin 1) k) := by
  subst hs ha hh hb
  exact (congrFun (array3 V c) (ix2 r k)).trans (combine3_apply _ _ _ _ r k)

end Cert.KernelIdeal.Regions

end
-- ==== Proof.KernelValue.lean ====
/-
  The idealized kernel's result is the reference's last stage of the arguments.

  The contents of the buffers at the seven segment boundaries are followed from the launch memory. After the first
  stretch of host operations the edge rows and the scale are the reference's. The first region leaves the reference's
  first product (a block of rows times the whole weight matrix is the corresponding block of rows of the product); the
  second stretch then computes the reference's aggregate, the same operations on equal operands; the second region
  leaves the reference's rectified combination, entry by entry; the third region the reference's second product; the
  third stretch the second aggregate; and the last region the reference's result. The edge rows, the scale and the
  later arguments are carried along: no region and no later host operation writes them.
-/
import proofs.«167669_j44659069944275_1_alg».proof.Proof.Gen.KernelIdeal.Frame
import proofs.«167669_j44659069944275_1_alg».proof.Proof.Gen.ReferenceIdeal.Read
import proofs.«167669_j44659069944275_1_alg».proof.Proof.HostStretch
import proofs.«167669_j44659069944275_1_alg».proof.Proof.Combine
import Idealize.ShloMosaic.Lib.ValueIdx
import proofs.«167669_j44659069944275_1_alg».proof.Proof.Region0
import proofs.«167669_j44659069944275_1_alg».proof.Proof.Region1
import proofs.«167669_j44659069944275_1_alg».proof.Proof.Region2
import proofs.«167669_j44659069944275_1_alg».proof.Proof.Region3

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.HostValue

variable (m : (ℓ : Loc nD τ sig) → Buf (Elt Ideal) ℓ) (ρ : Dev nD → PrngReg) (c : Dev nD)

/-! ## After the first stretch -/

theorem at1_arg0 : W1 m ρ c (Proc.devRef .tc main_arg0) = (m ((c : Thread nD τ).loc main_arg0)) := hostOps0_keeps_main_arg0 (W0 m ρ c)
theorem at1_arg1 : W1 m ρ c (Proc.devRef .tc main_arg1) = (m ((c : Thread nD τ).loc main_arg1)) := hostOps0_keeps_main_arg1 (W0 m ρ c)
theorem at1_arg2 : W1 m ρ c (Proc.devRef .tc main_arg2) = (m ((c : Thread nD τ).loc main_arg2)) := hostOps0_keeps_main_arg2 (W0 m ρ c)
theorem at1_arg3 : W1 m ρ c (Proc.devRef .tc main_arg3) = (m ((c : Thread nD τ).loc main_arg3)) := hostOps0_keeps_main_arg3 (W0 m ρ c)
theorem at1_arg4 : W1 m ρ c (Proc.devRef .tc main_arg4) = (m ((c : Thread nD τ).loc main_arg4)) := hostOps0_keeps_main_arg4 (W0 m ρ c)
theorem at1_arg5 : W1 m ρ c (Proc.devRef .tc main_arg5) = (m ((c : Thread nD τ).loc main_arg5)) := hostOps0_keeps_main_arg5 (W0 m ρ c)

theorem at1_bias1 : W1 m ρ c (Proc.devRef .tc main_arg3) = (m ((c : Thread nD τ).loc main_arg3)) := at1_arg3 m ρ c
theorem at1_weight2 : W1 m ρ c (Proc.devRef .tc main_arg4) = (m ((c : Thread nD τ).loc main_arg4)) := at1_arg4 m ρ c
theorem at1_bias2 : W1 m ρ c (Proc.devRef .tc main_arg5) = (m ((c : Thread nD τ).loc main_arg5)) := at1_arg5 m ρ c
theorem at1_src : W1 m ρ c (Proc.devRef .tc main_v1) = Cert.ReferenceIdeal.Read.val_main_v1 (F := Ideal) (m ((c : Thread nD τ).loc main_arg1)) := stretch0_src (W0 m ρ c)
theorem at1_dst : W1 m ρ c (Proc.devRef .tc main_v3) = Cert.ReferenceIdeal.Read.val_main_v3 (F := Ideal) (m ((c : Thread nD τ).loc main_arg1)) := stretch0_dst (W0 m ρ c)
theorem at1_scale : W1 m ρ c (Proc.devRef .tc main_v10) = Cert.ReferenceIdeal.Read.val_main_v11 (F := Ideal) (m ((c : Thread nD τ).loc main_arg1)) := stretch0_norm (W0 m ρ c)

/-! ## After the first region: the first product -/

/-- A block of rows of the features times the whole weight matrix, block by block, is the reference's product. -/
theorem at2_product : W2 m ρ c (Proc.devRef .tc main_v11) = Cert.ReferenceIdeal.Read.val_main_v4 (F := Ideal) (m ((c : Thread nD τ).loc main_arg0)) (m ((c : Thread nD τ).loc main_arg2)) := by
  refine (W2_arr m ρ c 2).trans ((Regions.final0 (V1 m ρ) c).trans ?_)
  rw [show V1 m ρ c main_arg0 = (m ((c : Thread nD τ).loc main_arg0)) from at1_arg0 m ρ c, show V1 m ρ c main_arg2 = (m ((c : Thread nD τ).loc main_arg2)) from at1_arg2 m ρ c]
  rfl

theorem at2_src : W2 m ρ c (Proc.devRef .tc main_v1) = Cert.ReferenceIdeal.Read.val_main_v1 (F := Ideal) (m ((c : Thread nD τ).loc main_arg1)) :=
  (W2_of_ne m ρ c main_v1 (by decide)).trans (at1_src m ρ c)
theorem at2_dst : W2 m ρ c (Proc.devRef .tc main_v3) = Cert.ReferenceIdeal.Read.val_main_v3 (F := Ideal) (m ((c : Thread nD τ).loc main_arg1)) :=
  (W2_of_ne m ρ c main_v3 (by decide)).trans (at1_dst m ρ c)
theorem at2_scale : W2 m ρ c (Proc.devRef .tc main_v10) = Cert.ReferenceIdeal.Read.val_main_v11 (F := Ideal) (m ((c : Thread nD τ).loc main_arg1)) :=
  (W2_of_ne m ρ c main_v10 (by decide)).trans (at1_scale m ρ c)
theorem at2_bias1 : W2 m ρ c (Proc.devRef .tc main_arg3) = (m ((c : Thread nD τ).loc main_arg3)) :=
  (W2_of_ne m ρ c main_arg3 (by decide)).trans (at1_bias1 m ρ c)
theorem at2_weight2 : W2 m ρ c (Proc.devRef .tc main_arg4) = (m ((c : Thread nD τ).loc main_arg4)) :=
  (W2_of_ne m ρ c main_arg4 (by decide)).trans (at1_weight2 m ρ c)
theorem at2_bias2 : W2 m ρ c (Proc.devRef .tc main_arg5) = (m ((c : Thread nD τ).loc main_arg5)) :=
  (W2_of_ne m ρ c main_arg5 (by decide)).trans (at1_bias2 m ρ c)

/-! ## After the second stretch: the first aggregate, the bias row, the scale column -/

theorem at3_agg : W3 m ρ c (Proc.devRef .tc main_v31) = Cert.ReferenceIdeal.Read.val_main_v31 (F := Ideal) (m ((c : Thread nD τ).loc main_arg0)) (m ((c : Thread nD τ).loc main_arg1)) (m ((c : Thread nD τ).loc main_arg2)) :=
  stretch1_agg (W2 m ρ c) _ _ _ (at2_product m ρ c) (at2_scale m ρ c) (at2_src m ρ c) (at2_dst m ρ c)
theorem at3_bias : W3 m ρ c (Proc.devRef .tc main_v32) = shapeCast S1x64 (m ((c : Thread nD τ).loc main_arg3)) shapeCasts_S64_S1x64 :=
  (stretch1_bias (W2 m ρ c)).trans (by rw [at2_bias1 m ρ c])
theorem at3_column : W3 m ρ c (Proc.devRef .tc main_v33) = shapeCast S100000x1 (Cert.ReferenceIdeal.Read.val_main_v11 (F := Ideal) (m ((c : Thread nD τ).loc main_arg1))) shapeCasts_S100000_S100000x1 :=
  (stretch1_scale (W2 m ρ c)).trans (by rw [at2_scale m ρ c])
theorem at3_product : W3 m ρ c (Proc.devRef .tc main_v11) = Cert.ReferenceIdeal.Read.val_main_v4 (F := Ideal) (m ((c : Thread nD τ).loc main_arg0)) (m ((c : Thread nD τ).loc main_arg2)) :=
  (hostOps1_keeps_main_v11 (W2 m ρ c)).trans (at2_product m ρ c)
theorem at3_src : W3 m ρ c (Proc.devRef .tc main_v1) = Cert.ReferenceIdeal.Read.val_main_v1 (F := Ideal) (m ((c : Thread nD τ).loc main_arg1)) :=
  (hostOps1_keeps_main_v1 (W2 m ρ c)).trans (at2_src m ρ c)
theorem at3_dst : W3 m ρ c (Proc.devRef .tc main_v3) = Cert.ReferenceIdeal.Read.val_main_v3 (F := Ideal) (m ((c : Thread nD τ).loc main_arg1)) :=
  (hostOps1_keeps_main_v3 (W2 m ρ c)).trans (at2_dst m ρ c)
theorem at3_scale : W3 m ρ c (Proc.devRef .tc main_v10) = Cert.ReferenceIdeal.Read.val_main_v11 (F := Ideal) (m ((c : Thread nD τ).loc main_arg1)) :=
  (hostOps1_keeps_main_v10 (W2 m ρ c)).trans (at2_scale m ρ c)
theorem at3_weight2 : W3 m ρ c (Proc.devRef .tc main_arg4) = (m ((c : Thread nD τ).loc main_arg4)) :=
  (hostOps1_keeps_main_arg4 (W2 m ρ c)).trans (at2_weight2 m ρ c)
theorem at3_bias2 : W3 m ρ c (Proc.devRef .tc main_arg5) = (m ((c : Thread nD τ).loc main_arg5)) :=
  (hostOps1_keeps_main_arg5 (W2 m ρ c)).trans (at2_bias2 m ρ c)

/-! ## After the second region: the rectified first layer -/

theorem at4_layer1 : W4 m ρ c (Proc.devRef .tc main_v34) = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) := by
  refine (W4_arr m ρ c 4).trans ?_
  refine funext fun (i : S100000x64.Idx) => ?_
  obtain ⟨r, k, rfl⟩ : ∃ (r : Fin 100000) (k : Fin 64), i = ix2 r k := ⟨i 0, i 1, eq_ix2 i⟩
  exact (Regions.final1 (V3 m ρ) c _ _ _ _ (at3_column m ρ c).symm (at3_agg m ρ c).symm (at3_product m ρ c).symm (at3_bias m ρ c).symm r k).trans
    (Bridge.combine1_eq _ _ _ _ _ _ r k)

theorem at4_src : W4 m ρ c (Proc.devRef .tc main_v1) = Cert.ReferenceIdeal.Read.val_main_v1 (F := Ideal) (m ((c : Thread nD τ).loc main_arg1)) :=
  (W4_of_ne m ρ c main_v1 (by decide)).trans (at3_src m ρ c)
theorem at4_dst : W4 m ρ c (Proc.devRef .tc main_v3) = Cert.ReferenceIdeal.Read.val_main_v3 (F := Ideal) (m ((c : Thread nD τ).loc main_arg1)) :=
  (W4_of_ne m ρ c main_v3 (by decide)).trans (at3_dst m ρ c)
theorem at4_scale : W4 m ρ c (Proc.devRef .tc main_v10) = Cert.ReferenceIdeal.Read.val_main_v11 (F := Ideal) (m ((c : Thread nD τ).loc main_arg1)) :=
  (W4_of_ne m ρ c main_v10 (by decide)).trans (at3_scale m ρ c)
theorem at4_weight2 : W4 m ρ c (Proc.devRef .tc main_arg4) = (m ((c : Thread nD τ).loc main_arg4)) :=
  (W4_of_ne m ρ c main_arg4 (by decide)).trans (at3_weight2 m ρ c)
theorem at4_bias2 : W4 m ρ c (Proc.devRef .tc main_arg5) = (m ((c : Thread nD τ).loc main_arg5)) :=
  (W4_of_ne m ρ c main_arg5 (by decide)).trans (at3_bias2 m ρ c)

/-! ## After the third region: the second product -/

theorem at5_product : W5 m ρ c (Proc.devRef .tc main_v35) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Regions.final2 (V4 m ρ) c).trans ?_)
  rw [show V4 m ρ c main_v34 = _ from at4_layer1 m ρ c, show V4 m ρ c main_arg4 = (m ((c : Thread nD τ).loc main_arg4)) from at4_weight2 m ρ c]
  rfl

theorem at5_src : W5 m ρ c (Proc.devRef .tc main_v1) = Cert.ReferenceIdeal.Read.val_main_v1 (F := Ideal) (m ((c : Thread nD τ).loc main_arg1)) :=
  (W5_of_ne m ρ c main_v1 (by decide)).trans (at4_src m ρ c)
theorem at5_dst : W5 m ρ c (Proc.devRef .tc main_v3) = Cert.ReferenceIdeal.Read.val_main_v3 (F := Ideal) (m ((c : Thread nD τ).loc main_arg1)) :=
  (W5_of_ne m ρ c main_v3 (by decide)).trans (at4_dst m ρ c)
theorem at5_scale : W5 m ρ c (Proc.devRef .tc main_v10) = Cert.ReferenceIdeal.Read.val_main_v11 (F := Ideal) (m ((c : Thread nD τ).loc main_arg1)) :=
  (W5_of_ne m ρ c main_v10 (by decide)).trans (at4_scale m ρ c)
theorem at5_bias2 : W5 m ρ c (Proc.devRef .tc main_arg5) = (m ((c : Thread nD τ).loc main_arg5)) :=
  (W5_of_ne m ρ c main_arg5 (by decide)).trans (at4_bias2 m ρ c)

/-! ## After the third stretch: the second aggregate, bias row and scale column -/

theorem at6_agg : W6 m ρ c (Proc.devRef .tc main_v55) = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  stretch3_agg (W5 m ρ c) _ _ _ _ _ (at5_product m ρ c) (at5_scale m ρ c) (at5_src m ρ c) (at5_dst m ρ c)
theorem at6_bias : W6 m ρ c (Proc.devRef .tc main_v56) = shapeCast S1x128 (m ((c : Thread nD τ).loc main_arg5)) shapeCasts_S128_S1x128 :=
  (stretch3_bias (W5 m ρ c)).trans (by rw [at5_bias2 m ρ c])
theorem at6_column : W6 m ρ c (Proc.devRef .tc main_v57) = shapeCast S100000x1 (Cert.ReferenceIdeal.Read.val_main_v11 (F := Ideal) (m ((c : Thread nD τ).loc main_arg1))) shapeCasts_S100000_S100000x1 :=
  (stretch3_scale (W5 m ρ c)).trans (by rw [at5_scale m ρ c])
theorem at6_product : W6 m ρ c (Proc.devRef .tc main_v35) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (hostOps3_keeps_main_v35 (W5 m ρ c)).trans (at5_product m ρ c)

/-! ## After the last region: the result -/

/-- The result buffer at the last boundary is the reference's last stage of the launch arguments. -/
theorem result_eq : W7 m ρ c (Proc.devRef .tc main_v58) = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ?_
  refine funext fun (i : S100000x128.Idx) => ?_
  obtain ⟨r, k, rfl⟩ : ∃ (r : Fin 100000) (k : Fin 128), i = ix2 r k := ⟨i 0, i 1, eq_ix2 i⟩
  exact (Regions.final3 (V6 m ρ) c _ _ _ _ (at6_column m ρ c).symm (at6_agg m ρ c).symm (at6_product m ρ c).symm (at6_bias m ρ c).symm r k).trans
    (Bridge.combine2_eq _ _ _ _ _ _ _ _ r k)

end Cert.KernelIdeal.Result

end
-- ==== Proof.lean ====
/-
  Two graph-convolution layers over 100000 nodes and 1600000 edges: the kernel program against its reference, on
  the extended reals.

  Each layer forms the dense product h = x W, aggregates  agg = scatter-add over edges (src, dst) of  h[src] * s[src]
  into row dst, and combines  s * agg + (s * s) * h + b  per node, where s is the reciprocal square root of one plus
  the in-degree; the first layer ends with a maximum with zero. The kernel program computes the two products and the
  two combinations in pipelined regions over blocks of 5000 rows and leaves the degree, the gathers and the scatter-adds
  to host operations; the reference is host operations throughout.

  On the extended reals the two agree without any law of arithmetic: a block of rows times the whole weight matrix is
  that block of rows of the product (a conversion of float format is the identity, and a product into a zero
  accumulator is the plain sum over the contracted axis, as the host's product is); the host operations between the
  regions are the reference's own operations applied to equal operands, so the gathers and scatter-adds are never
  opened; and the per-node combination, which the kernel reads from a one-column scale and a one-row bias and the
  reference from full broadcasts, is the same expression entry by entry. The precondition is not used.

  The three frames are the generated ones (the reference's is its generated run with the result dropped); the
  idealization rewrote nothing, so preservation is trivial.
-/
import proofs.«167669_j44659069944275_1_alg».proof.Defs
import proofs.«167669_j44659069944275_1_alg».proof.Proof.Gen.Kernel
import proofs.«167669_j44659069944275_1_alg».proof.Proof.Gen.Kernel.Frame
import proofs.«167669_j44659069944275_1_alg».proof.Proof.Gen.KernelIdeal
import proofs.«167669_j44659069944275_1_alg».proof.Proof.Gen.KernelIdeal.Frame
import proofs.«167669_j44659069944275_1_alg».proof.Proof.Gen.ReferenceIdeal
import proofs.«167669_j44659069944275_1_alg».proof.Proof.Gen.Pre_finite_inputs
import proofs.«167669_j44659069944275_1_alg».proof.Proof.Gen.ReferenceIdeal.Run
import proofs.«167669_j44659069944275_1_alg».proof.Proof.Gen.ReferenceIdeal.Read
import proofs.«167669_j44659069944275_1_alg».proof.Proof.KernelRun
import proofs.«167669_j44659069944275_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program, word level: it runs, and its arguments end as launched. -/
theorem frame_kernel : Cert.frame_Kernel := fun m ρ _ => Cert.Kernel.Gen.frame m ρ

/-- The idealized kernel program runs, and its arguments end as launched. -/
theorem frame_kernelIdeal : Cert.frame_KernelIdeal := fun m ρ _ => Cert.KernelIdeal.Gen.frame m ρ

/-- The idealized reference runs, and its arguments end as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's last stage of the arguments:
    the kernel program by following its buffers through the seven segments, the reference by its run. -/
theorem algebraic : Cert.algebraic_KernelIdeal_ReferenceIdeal := by
  intro m ρ m' ρ' _ hagree
  refine ⟨fun c => Cert.ReferenceIdeal.Read.val_main_v82 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Result.result_eq m ρ c), (h c).2⟩)
      (Cert.KernelIdeal.ValueRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v82_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
